-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x3200000 : Shape := ⟨2, ![2, 3200000]⟩
abbrev S1433x32 : Shape := ⟨2, ![1433, 32]⟩
abbrev S32 : Shape := ⟨1, ![32]⟩
abbrev S32x7 : Shape := ⟨2, ![32, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x32 : S_.BroadcastsInDim S1433x32 (![] : Fin 0 → Fin S1433x32.rank)
  reducesTo_S1433x32_S_d0_1 : S1433x32.ReducesTo [0, 1] S_
  bcast_S_S32 : S_.BroadcastsInDim S32 (![] : Fin 0 → Fin S32.rank)
  reducesTo_S32_S_d0 : S32.ReducesTo [0] S_
  bcast_S_S32x7 : S_.BroadcastsInDim S32x7 (![] : Fin 0 → Fin S32x7.rank)
  reducesTo_S32x7_S_d0_1 : S32x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S32x7 1) : IVec S_ 1 :=
  let main_c_5 : IVec S_ 1 := constantI S_ 1 1#1
  let main_v17 : IVec S_ 1 := (fun x v => Host.reduce IntOp.andi x v reducesTo_S32x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S2x3200000 32) (main_arg2 : FVec F S1433x32 .f32) (main_arg3 : FVec F S32 .f32) (main_arg4 : FVec F S32x7 .f32) (main_arg5 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x32 .f32 := Host.absf main_arg2
  let main_cst_0 : FVec F S_ .f32 := constant S_ .f32 0x7F800000#32
  let main_v5 : FVec F S1433x32 .f32 := broadcastInDim S1433x32 ![] bcast_S_S1433x32 main_cst_0
  let main_v6 : IVec S1433x32 1 := cmpf .olt main_v4 main_v5
  let main_c_1 : IVec S_ 1 := constantI S_ 1 1#1
  let main_v7 : IVec S_ 1 := (fun x v => Host.reduce IntOp.andi x v reducesTo_S1433x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x7 .f32 := Host.absf main_arg4
  let main_cst_4 : FVec F S_ .f32 := constant S_ .f32 0x7F800000#32
  let main_v15 : FVec F S32x7 .f32 := broadcastInDim S32x7 ![] bcast_S_S32x7 main_cst_4
  let main_v16 : IVec S32x7 1 := cmpf .olt main_v14 main_v15
  fn_part1 (F := F) main_arg5 main_v13 main_v16
-- ==== Kernel.lean ====
abbrev S100000x1433 : Shape := ⟨2, ![100000, 1433]⟩
abbrev S2x3200000 : Shape := ⟨2, ![2, 3200000]⟩
abbrev S1433x32 : Shape := ⟨2, ![1433, 32]⟩
abbrev S32 : Shape := ⟨1, ![32]⟩
abbrev S32x7 : Shape := ⟨2, ![32, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S2000x1433 : Shape := ⟨2, ![2000, 1433]⟩
abbrev S2000x32 : Shape := ⟨2, ![2000, 32]⟩
abbrev S3300000x32 : Shape := ⟨2, ![3300000, 32]⟩
abbrev S1x32 : Shape := ⟨2, ![1, 32]⟩
abbrev S100000x7 : Shape := ⟨2, ![100000, 7]⟩
abbrev S2000x7 : Shape := ⟨2, ![2000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 104
  | .vmem => 10
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x32, .f32⟩
  | .hbm, ⟨3, _⟩ => ⟨S32, .f32⟩
  | .hbm, ⟨4, _⟩ => ⟨S32x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x7, .f32⟩
  | .hbm, ⟨103, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S32x7, .f32⟩
  | .local _ .vmem, ⟨8, _⟩ => ⟨S2000x7, .f32⟩
  | .local _ .vmem, ⟨9, _⟩ => ⟨S2000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x32_S1433x32_0_0 : ∀ a, (![0, 0] : Fin 2 → Nat) a + S1433x32.size a ≤ S1433x32.size a
  h_S1433x32 : 0 < S1433x32.numel
  inb_S2000x32_S2000x32_0_0 : ∀ a, (![0, 0] : Fin 2 → Nat) a + S2000x32.size a ≤ S2000x32.size a
  h_S2000x32 : 0 < S2000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S2000x32_S2000x32 : S2000x32.ShapeCasts S2000x32
  inb_S32x7_S32x7_0_0 : ∀ a, (![0, 0] : Fin 2 → Nat) a + S32x7.size a ≤ S32x7.size a
  h_S32x7 : 0 < S32x7.numel
  inb_S2000x7_S2000x7_0_0 : ∀ a, (![0, 0] : Fin 2 → Nat) a + S2000x7.size a ≤ S2000x7.size a
  h_S2000x7 : 0 < S2000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1433_S1433x32_S2000x32_1_0_0_1_n_n_wf : DotDims.WF S2000x1433 S1433x32 S2000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S2000x32_S32x7_S2000x7_1_0_0_1_n_n_wf : DotDims.WF S2000x32 S32x7 S2000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x32.size a ≤ S1433x32.size a
  hwx0_1 : ∀ i : grid0.Coords, EltTy.bits .f32 = 32 ∨ (Rect.block (s := S1433x32) S1433x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x7.size a ≤ S32x7.size a
  hwx1_1 : ∀ i : grid1.Coords, EltTy.bits .f32 = 32 ∨ (Rect.block (s := S32x7) S32x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x7.size a ≤ S100000x7.size a
  hwx1_2 : ∀ i : grid1.Coords, EltTy.bits .f32 = 32 ∨ (Rect.block (s := S100000x7) S2000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1433_S1433x32_S2000x32_1_0_0_1_n_n : DotDims S2000x1433 S1433x32 S2000x32 where
  lhsContracting := [1]
  rhsContracting := [0]
  lhsNonContracting := [0]
  rhsNonContracting := [1]
  lhsBatch := []
  rhsBatch := []
  wf := dot_S2000x1433_S1433x32_S2000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S2000x32_S32x7_S2000x7_1_0_0_1_n_n : DotDims S2000x32 S32x7 S2000x7 where
  lhsContracting := [1]
  rhsContracting := [0]
  lhsNonContracting := [0]
  rhsNonContracting := [1]
  lhsBatch := []
  rhsBatch := []
  wf := dot_S2000x32_S32x7_S2000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S2x3200000 : Shape := ⟨2, ![2, 3200000]⟩
abbrev S1433x32 : Shape := ⟨2, ![1433, 32]⟩
abbrev S32 : Shape := ⟨1, ![32]⟩
abbrev S32x7 : Shape := ⟨2, ![32, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x1433, .f32⟩
  | 1 => ⟨S2x3200000, .i32⟩
  | 2 => ⟨S1433x32, .f32⟩
  | 3 => ⟨S32, .f32⟩
  | 4 => ⟨S32x7, .f32⟩
  | 5 => ⟨S7, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x32, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x32, .f32⟩
  | 56 => ⟨S3300000x1, .f32⟩
  | 57 => ⟨S3300000x32, .f32⟩
  | 58 => ⟨S3300000x32, .f32⟩
  | 59 => ⟨S_, .f32⟩
  | 60 => ⟨S100000x32, .f32⟩
  | 61 => ⟨S3300000x1, .i32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000x32, .f32⟩
  | 68 => ⟨S100000x32, .f32⟩
  | 69 => ⟨S_, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S3300000, .f32⟩
  | 102 => ⟨S100000x7, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x7, .f32⟩
  | 112 => ⟨S3300000x1, .f32⟩
  | 113 => ⟨S3300000x7, .f32⟩
  | 114 => ⟨S3300000x7, .f32⟩
  | 115 => ⟨S_, .f32⟩
  | 116 => ⟨S100000x7, .f32⟩
  | 117 => ⟨S3300000x1, .i32⟩
  | 118 => ⟨S100000x7, .f32⟩
  | 119 => ⟨S1x7, .f32⟩
  | 120 => ⟨S100000x7, .f32⟩
  | 121 => ⟨S100000x7, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x1433, .f32⟩

abbrev hbmTy0_1 (i : Nat) : BufTy := match i % 128 with
  | 0 => ⟨S100000x7, .f32⟩
  | 1 => ⟨S100000x7, .f32⟩
  | 2 => ⟨S100000x7, .f32⟩
  | 3 => ⟨S_, .f32⟩
  | 4 => ⟨S100000, .f32⟩
  | 5 => ⟨S100000x1, .f32⟩
  | 6 => ⟨S100000x1, .f32⟩
  | 7 => ⟨S100000x7, .f32⟩
  | 8 => ⟨S100000x7, .f32⟩
  | _ => ⟨S100000x1433, .f32⟩

abbrev hbmTy (i : Nat) : BufTy := match i / 128 with
  | 0 => hbmTy0_0 i
  | 1 => hbmTy0_1 i
  | _ => ⟨S100000x1433, .f32⟩

abbrev bufTy : (tb : Table) → Fin (tcTables nBuf tb) → BufTy
  | .hbm, ⟨i, _⟩ => hbmTy i
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1433_S1433x32_S100000x32_1_0_0_1_n_n_wf : DotDims.WF S100000x1433 S1433x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x7_S100000x7_1_0_0_1_n_n_wf : DotDims.WF S100000x32 S32x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1433_S1433x32_S100000x32_1_0_0_1_n_n : DotDims S100000x1433 S1433x32 S100000x32 where
  lhsContracting := [1]
  rhsContracting := [0]
  lhsNonContracting := [0]
  rhsNonContracting := [1]
  lhsBatch := []
  rhsBatch := []
  wf := dot_S100000x1433_S1433x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x7_S100000x7_1_0_0_1_n_n : DotDims S100000x32 S32x7 S100000x7 where
  lhsContracting := [1]
  rhsContracting := [0]
  lhsNonContracting := [0]
  rhsNonContracting := [1]
  lhsBatch := []
  rhsBatch := []
  wf := dot_S100000x32_S32x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.Tails.lean ====
/-
  The host arithmetic of a two-layer graph convolution, named once.

  Around its two matrix products the network does only host operations, and the two programs compared in this
  certificate do the same ones: the edge list with a self loop appended at every node, the symmetric
  normalisation  w(e) = d(src e)^(-1/2) · d(dst e)^(-1/2)  from the in-degrees d, and per layer the aggregation
      out(i, :) = Σ_{e : dst e = i} h(src e, :) · w(e)  +  b
  followed by  max(·, 0)  after the first layer and by the row-wise log-softmax after the second.  Each of these
  stretches is defined here as ONE function of the arrays it reads, so that the two programs' results can be
  compared as the same functions applied to equal matrix products, without ever opening a gather, a scatter-add or
  a softmax.
-/
import proofs.«116943_j10539849744444_1_alg».proof.KernelIdeal

noncomputable section

namespace Cert.Gcn

open Cert.KernelIdeal Idealize.ShloMosaic
open Cert.KernelIdeal.Facts₀

variable {F : FTy → Type} [FloatOps F] [Cert.KernelIdeal.Facts]

/-- Row `r` of the 2 × E edge list as a vector of E node numbers, followed by the node numbers 0 … N-1: the
    edges' end points of one side with one self loop per node appended. -/
def ends (r : Nat) (hr : S2x3200000.Slices ![r, 0] S1x3200000)
    (ei : (⟨S2x3200000, .i32⟩ : BufTy).Contents (Elt F)) : (⟨S3300000, .i32⟩ : BufTy).Contents (Elt F) :=
  concatenate S3300000 0
    [⟨S3200000, shapeCast S3200000 (extractStridedSlice S1x3200000 ![r, 0] ei hr) shapeCasts_S1x3200000_S3200000⟩,
     ⟨S100000, iotaInDim S100000 32 0⟩] concatenates_S3200000_S100000_S3300000_d0

/-- The source end of every edge (row 0 of the edge list, then the self loops). -/
def srcOf (ei : (⟨S2x3200000, .i32⟩ : BufTy).Contents (Elt F)) : (⟨S3300000, .i32⟩ : BufTy).Contents (Elt F) :=
  ends 0 slices_S2x3200000_S1x3200000_0_0 ei

/-- The target end of every edge (row 1 of the edge list, then the self loops). -/
def dstOf (ei : (⟨S2x3200000, .i32⟩ : BufTy).Contents (Elt F)) : (⟨S3300000, .i32⟩ : BufTy).Contents (Elt F) :=
  ends 1 slices_S2x3200000_S1x3200000_1_0 ei

/-- A node number used as a row index: a negative one counts from the end (N is added to it). -/
def wrap (a : (⟨S3300000, .i32⟩ : BufTy).Contents (Elt F)) : (⟨S3300000, .i32⟩ : BufTy).Contents (Elt F) :=
  select (cmpi .slt a (broadcastInDim S3300000 ![] bcast_S_S3300000 (constantI S_ 32 0#32)))
    (addi a (broadcastInDim S3300000 ![] bcast_S_S3300000 (constantI S_ 32 100000#32))) a

/-- The in-degree of every node: one unit scatter-added per edge at its target. -/
def degree (dst : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 dst)
    (broadcastInDim S3300000 ![] bcast_S_S3300000 (constant (F := F) S_ .f32 0x3F800000#32))

/-- d^(-1/2) where the degree d is positive, 0 elsewhere. -/
def invSqrtDeg (deg : (⟨S100000, .f32⟩ : BufTy).Contents (Elt F)) : (⟨S100000, .f32⟩ : BufTy).Contents (Elt F) :=
  select (cmpf .ogt deg (broadcastInDim S100000 ![] bcast_S_S100000 (constant (F := F) S_ .f32 0x00000000#32)))
    (Host.rsqrt deg)
    (broadcastInDim S100000 ![] bcast_S_S100000 (id (constant (F := F) S_ .f32 0x00000000#32)))

/-- The weight of every edge: d(src)^(-1/2) · d(dst)^(-1/2). -/
def edgeWeight (dinv : (⟨S100000, .f32⟩ : BufTy).Contents (Elt F))
    (src dst : (⟨S3300000, .i32⟩ : BufTy).Contents (Elt F)) : (⟨S3300000, .f32⟩ : BufTy).Contents (Elt F) :=
  mulf
    (Host.gather gather_S100000_S3300000x1_S3300000_n_0_n_n_0_1_1 dinv
      (broadcastInDim S3300000x1 ![0] bcast_S3300000_S3300000x1_0 (wrap src)))
    (Host.gather gather_S100000_S3300000x1_S3300000_n_0_n_n_0_1_1 dinv
      (broadcastInDim S3300000x1 ![0] bcast_S3300000_S3300000x1_0 (wrap dst)))

/-- The edge weights from the edge list alone. -/
def normOf (src dst : (⟨S3300000, .i32⟩ : BufTy).Contents (Elt F)) : (⟨S3300000, .f32⟩ : BufTy).Contents (Elt F) :=
  edgeWeight (invSqrtDeg (degree dst)) src dst

/-- One aggregation over 32 features: row i is the sum over the edges into i of the source's row times the
    edge's weight, plus the bias. -/
def aggregate32 (h : (⟨S100000x32, .f32⟩ : BufTy).Contents (Elt F))
    (src dst : (⟨S3300000, .i32⟩ : BufTy).Contents (Elt F)) (w : (⟨S3300000, .f32⟩ : BufTy).Contents (Elt F))
    (b : (⟨S32, .f32⟩ : BufTy).Contents (Elt F)) : (⟨S100000x32, .f32⟩ : BufTy).Contents (Elt F) :=
  addf
    (Host.scatterAdd scatter_S100000x32_S3300000x1_S3300000x32_1_0_0_1
      (broadcastInDim S100000x32 ![] bcast_S_S100000x32 (constant (F := F) S_ .f32 0x00000000#32))
      (broadcastInDim S3300000x1 ![0] bcast_S3300000_S3300000x1_0 dst)
      (mulf
        (Host.gather gather_S100000x32_S3300000x1_S3300000x32_1_0_n_n_0_1_132 h
          (broadcastInDim S3300000x1 ![0] bcast_S3300000_S3300000x1_0 (wrap src)))
        (broadcastInDim S3300000x32 ![0, 1] bcast_S3300000x1_S3300000x32_0_1
          (broadcastInDim S3300000x1 ![0] bcast_S3300000_S3300000x1_0 w))))
    (broadcastInDim S100000x32 ![0, 1] bcast_S1x32_S100000x32_0_1 (broadcastInDim S1x32 ![1] bcast_S32_S1x32_1 b))

/-- The first layer after its matrix product: the aggregation, then max(·, 0). -/
def layer1 (h : (⟨S100000x32, .f32⟩ : BufTy).Contents (Elt F))
    (src dst : (⟨S3300000, .i32⟩ : BufTy).Contents (Elt F)) (w : (⟨S3300000, .f32⟩ : BufTy).Contents (Elt F))
    (b : (⟨S32, .f32⟩ : BufTy).Contents (Elt F)) : (⟨S100000x32, .f32⟩ : BufTy).Contents (Elt F) :=
  maximumf (aggregate32 h src dst w b)
    (broadcastInDim S100000x32 ![] bcast_S_S100000x32 (constant (F := F) S_ .f32 0x00000000#32))

/-- One aggregation over 7 features. -/
def aggregate7 (h : (⟨S100000x7, .f32⟩ : BufTy).Contents (Elt F))
    (src dst : (⟨S3300000, .i32⟩ : BufTy).Contents (Elt F)) (w : (⟨S3300000, .f32⟩ : BufTy).Contents (Elt F))
    (b : (⟨S7, .f32⟩ : BufTy).Contents (Elt F)) : (⟨S100000x7, .f32⟩ : BufTy).Contents (Elt F) :=
  addf
    (Host.scatterAdd scatter_S100000x7_S3300000x1_S3300000x7_1_0_0_1
      (broadcastInDim S100000x7 ![] bcast_S_S100000x7 (constant (F := F) S_ .f32 0x00000000#32))
      (broadcastInDim S3300000x1 ![0] bcast_S3300000_S3300000x1_0 dst)
      (mulf
        (Host.gather gather_S100000x7_S3300000x1_S3300000x7_1_0_n_n_0_1_17 h
          (broadcastInDim S3300000x1 ![0] bcast_S3300000_S3300000x1_0 (wrap src)))
        (broadcastInDim S3300000x7 ![0, 1] bcast_S3300000x1_S3300000x7_0_1
          (broadcastInDim S3300000x1 ![0] bcast_S3300000_S3300000x1_0 w))))
    (broadcastInDim S100000x7 ![0, 1] bcast_S1x7_S100000x7_0_1 (broadcastInDim S1x7 ![1] bcast_S7_S1x7_1 b))

/-- x minus its row maximum (the maximum taken from -inf, and once more against -inf). -/
def shifted (x : (⟨S100000x7, .f32⟩ : BufTy).Contents (Elt F)) : (⟨S100000x7, .f32⟩ : BufTy).Contents (Elt F) :=
  subf x
    (broadcastInDim S100000x7 ![0, 1] bcast_S100000x1_S100000x7_0_1
      (broadcastInDim S100000x1 ![0] bcast_S100000_S100000x1_0
        (maximumf (broadcastInDim S100000 ![] bcast_S_S100000 (constant (F := F) S_ .f32 0xFF800000#32))
          (Host.reduce FloatOps.maximumf x (constant (F := F) S_ .f32 0xFF800000#32) reducesTo_S100000x7_S100000_d1 h_S_))))

/-- The row-wise log-softmax: the shifted rows minus the logarithm of the row sums of their exponentials. -/
def logSoftmax (x : (⟨S100000x7, .f32⟩ : BufTy).Contents (Elt F)) : (⟨S100000x7, .f32⟩ : BufTy).Contents (Elt F) :=
  subf (shifted x)
    (broadcastInDim S100000x7 ![0, 1] bcast_S100000x1_S100000x7_0_1
      (Host.log
        (broadcastInDim S100000x1 ![0] bcast_S100000_S100000x1_0
          (Host.reduceAdd (Host.exp (shifted x)) (constant (F := F) S_ .f32 0x00000000#32) reducesTo_S100000x7_S100000_d1 h_S_))))

/-- The second layer after its matrix product: the aggregation, then the row-wise log-softmax. -/
def layer2 (h : (⟨S100000x7, .f32⟩ : BufTy).Contents (Elt F))
    (src dst : (⟨S3300000, .i32⟩ : BufTy).Contents (Elt F)) (w : (⟨S3300000, .f32⟩ : BufTy).Contents (Elt F))
    (b : (⟨S7, .f32⟩ : BufTy).Contents (Elt F)) : (⟨S100000x7, .f32⟩ : BufTy).Contents (Elt F) :=
  logSoftmax (aggregate7 h src dst w b)

end Cert.Gcn

end
-- ==== Proof.KernelRun.lean ====
/-
  The idealized kernel's run, with every buffer named.

  The program is two launches of one matrix-product kernel among seven stretches of host operations.  Its run
  is the chain of those nine segments: a stretch of host operations takes the buffers from one valuation to the
  next (the fold of its operations), a launch replaces its output array by what the grid points wrote back and
  leaves every other buffer alone.  The last valuation of that chain, `Gen.W9`, is therefore what every
  unscoped buffer of a core holds when the program returns: in particular the result buffer and the six
  argument buffers.  This module states exactly that, for every weakly fair execution.
-/
import proofs.«116943_j10539849744444_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in its final state every
    unscoped buffer of core `c` holds the last valuation of the segment chain at that buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The same run read at the result and at the six arguments: the result buffer holds the chain's last
    valuation there, and each argument buffer holds what it held at launch (no segment writes an argument). -/
theorem run_result : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)
    (run_all m ρ)

end Cert.KernelIdeal.Whole

end
-- ==== Proof.LibTypedRef.lean ====
/-
  A value written through a typed buffer reference and read back.

  A module-local function of a host program (an outlined `where`, `relu`, `log_softmax`, …) names its values by
  typed references: a buffer together with a proof that the buffer's type is the value's.  Each of its operations
  stores its result through the result's reference (`toBuf`: a transport along that proof) and the next operation
  reads it through the same reference (`ofBuf`: the transport back).  Read back to back the two transports cancel,
  whatever the buffer is: no entry of the signature's buffer table has to be looked up.  Rewriting with this lemma
  first leaves only the transports at a function's arguments and at its result.
-/
import Idealize.ShloMosaic.Lib.StableHlo

namespace Idealize.ShloMosaic.TypedRef

open Idealize.ShloMosaic

/-- Contents stored through a typed reference and read back through it are the contents. -/
theorem ofBuf_toBuf {sig : RefSig} {T : BufTy} {Val : EltTy → Type} (x : StableHlo.TRef sig T) (v : T.Contents Val) :
    x.ofBuf (x.toBuf v) = v := by
  obtain ⟨r, h, a, b⟩ := x
  subst h
  rfl

/-- Contents read through a typed reference and stored back through it are the contents. -/
theorem toBuf_ofBuf {sig : RefSig} {T : BufTy} {Val : EltTy → Type} (x : StableHlo.TRef sig T) (v : x.ref.ty.Contents Val) :
    x.toBuf (x.ofBuf v) = v := by
  obtain ⟨r, h, a, b⟩ := x
  subst h
  rfl

end Idealize.ShloMosaic.TypedRef
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.Product1.lean ====
/-
  The first launch of the matrix-product kernel computes the whole product.

  The launch cuts the 100000-row left operand into 50 blocks of 2000 rows, keeps the 1433 × 32 right operand whole, and at
  grid point t writes block t of the output: the body loads both blocks, narrows them (the identity at the
  ideal values), multiplies them on the matrix unit into a zero accumulator and stores the 2000 × 32 result.
  Entry (p, q) of that block is  Σ_k x(2000·t + p, k) · w(k, q),  which is entry (2000·t + p, q) of the whole product
  x · w; the 50 blocks tile the output, so when the launch returns the output array holds the whole product,
  whatever the buffers held when it was entered.
-/
import proofs.«116943_j10539849744444_1_alg».proof.Proof.Gen.KernelIdeal.Frame
import proofs.«116943_j10539849744444_1_alg».proof.Proof.LibPlainMatmul
import proofs.«116943_j10539849744444_1_alg».proof.Proof.LibHostDot
import Idealize.ShloMosaic.Lib.Pipeline.Value
import Idealize.ShloMosaic.Lib.ValueIdx

set_option maxRecDepth 16384

noncomputable section

open scoped BigOperators

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The whole product x · w of a 100000 × 1433 and a 1433 × 32 matrix, as the host computes it. -/
def product (x : FVec Ideal S100000x1433 .f32) (w : FVec Ideal S1433x32 .f32) : FVec Ideal S100000x32 .f32 :=
  Host.dotGeneral (F := Ideal) (DotDims.plain 100000 1433 32) none x w

/-- Entry (p, q) of the body's result is the dot product of row p of the left block with column q of the right
    operand. -/
theorem body_apply (x0 : Vec Ideal S2000x1433 .f32) (x1 : Vec Ideal S1433x32 .f32) (p : Fin 2000) (q : Fin 32) :
    k0_pay1 x0 x1 (ix2 p q) = ∑ k : Fin 1433, x0 (ix2 p k) * x1 (ix2 k q) := by
  unfold k0_pay1
  exact PlainMatmul.matmul_zero_apply dot_S2000x1433_S1433x32_S2000x32_1_0_0_1_n_n rfl rfl rfl rfl rfl rfl none _ _ p q

/-- A block entry whose row p is row r of the whole left operand is entry (r, q) of the whole product. -/
theorem body_eq_product (x0 : Vec Ideal S2000x1433 .f32) (x1 : Vec Ideal S1433x32 .f32)
    (A : FVec Ideal S100000x1433 .f32) (B : FVec Ideal S1433x32 .f32)
    (p : Fin 2000) (q : Fin 32) (r : Fin 100000)
    (h0 : ∀ k : Fin 1433, x0 (ix2 p k) = A (ix2 r k)) (h1 : ∀ k : Fin 1433, x1 (ix2 k q) = B (ix2 k q)) :
    k0_pay1 x0 x1 (ix2 p q) = product A B (ix2 r q) := by
  rw [body_apply]
  unfold product
  rw [HostDot.dotGeneral_apply (DotDims.plain 100000 1433 32) rfl rfl rfl rfl rfl rfl none A B r q]
  exact Finset.sum_congr rfl fun k _ => by rw [h0 k, h1 k]

theorem zeros : (![0, 0] : Fin 2 → Nat) = fun _ => 0 := funext fun a => by fin_cases a <;> rfl

/-- The printed index maps over the grid: point t reads block (t, 0) of the left operand, block (0, 0) of the
    right one, and writes block (t, 0) of the output. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the operand arrays as the launch finds them. -/
theorem flushed_eq (c : Dev nD) (t : Fin cfg0.N) :
    (dat0 V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zeros]
  simp only [View.ld_unit_zero (S := S2000x1433) zeros, View.ld_unit_zero (S := S1433x32) zeros]
  obtain ⟨e0, e1, e2, e3, e4, e5⟩ := index_facts t
  have ht : t.val < 50 := lt_of_lt_of_eq t.isLt N_0
  funext j
  obtain ⟨p, q, rfl⟩ : ∃ (p : Fin 2000) (q : Fin 32), j = ix2 p q := ⟨j 0, j 1, eq_ix2 j⟩
  have hp : p.val < 2000 := p.isLt
  have hr : t.val * 2000 + p.val < 100000 := by omega
  refine (body_eq_product (iblk0 V c 0 t) (iblk0 V c 1 t) (V c main_arg0) (V c main_arg2) p q ⟨t.val * 2000 + p.val, hr⟩ ?_ ?_).trans ?_
  · intro k
    show V c main_arg0 (((cfg0.win 0).blk t).view.emb (ix2 p k)) = V c main_arg0 (ix2 ⟨t.val * 2000 + p.val, hr⟩ k)
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 1433 + 1 * k.val = k.val; omega
  · intro k
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 1433 + 1 * k.val = k.val; omega
    | ⟨1, _⟩ => show win0_1.index t (1 : Fin 2) * 32 + 1 * q.val = q.val; omega
  · show product (V c main_arg0) (V c main_arg2) (ix2 ⟨t.val * 2000 + p.val, hr⟩ q)
      = product (V c main_arg0) (V c main_arg2) (((cfg0.win 2).blk t).view.emb (ix2 p q))
    refine congrArg (product (V c main_arg0) (V c main_arg2)) (funext fun a => Fin.ext ?_)
    match a with
    | ⟨0, _⟩ => show t.val * 2000 + p.val = win0_2.index t (0 : Fin 2) * 2000 + 1 * p.val; omega
    | ⟨1, _⟩ => show q.val = win0_2.index t (1 : Fin 2) * 32 + 1 * q.val; omega

/-- An index of the output array is in point t's block iff each coordinate is in the block's range on its axis. -/
theorem mem_block (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v30).slice (win0_2.rect t)).set ↔ _
  rw [View.set_slice_whole, Rect.mem_set_unit]
  exact Iff.rfl

/-- Row r of the output lies in the block of point r / 2000: the blocks cover the output array. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : (i 0).val / 2000 < cfg0.N := lt_of_lt_of_eq (by omega : (i 0).val / 2000 < 50) N_0.symm
  refine ⟨⟨(i 0).val / 2000, hN⟩, flush0_2 _, ?_⟩
  obtain ⟨e0, e1, e2, e3, e4, e5⟩ := index_facts ⟨(i 0).val / 2000, hN⟩
  rw [mem_block]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 32 ≤ (i 1).val ∧ (i 1).val < win0_2.index ⟨(i 0).val / 2000, hN⟩ (1 : Fin 2) * 32 + 32
    rw [e5]; omega

/-- When the launch returns, its output array holds the whole product of its two operand arrays. -/
theorem final (c : Dev nD) :
    (dat0 V c).arrAt 2 cfg0.N = product (V c main_arg0) (V c main_arg2) :=
  (dat0 V c).arrAt_eq_of_cover 2 (product (V c main_arg0) (V c main_arg2)) (fun t _ => flushed_eq V c t) covered

end Cert.KernelIdeal.Product1

end
-- ==== Proof.Product2.lean ====
/-
  The second launch of the matrix-product kernel computes the whole product.

  The launch cuts the 100000-row left operand into 50 blocks of 2000 rows, keeps the 32 × 7 right operand whole, and at
  grid point t writes block t of the output: the body loads both blocks, narrows them (the identity at the
  ideal values), multiplies them on the matrix unit into a zero accumulator and stores the 2000 × 7 result.
  Entry (p, q) of that block is  Σ_k x(2000·t + p, k) · w(k, q),  which is entry (2000·t + p, q) of the whole product
  x · w; the 50 blocks tile the output, so when the launch returns the output array holds the whole product,
  whatever the buffers held when it was entered.
-/
import proofs.«116943_j10539849744444_1_alg».proof.Proof.Gen.KernelIdeal.Frame
import proofs.«116943_j10539849744444_1_alg».proof.Proof.LibPlainMatmul
import proofs.«116943_j10539849744444_1_alg».proof.Proof.LibHostDot
import Idealize.ShloMosaic.Lib.Pipeline.Value
import Idealize.ShloMosaic.Lib.ValueIdx

set_option maxRecDepth 16384

noncomputable section

open scoped BigOperators

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The whole product x · w of a 100000 × 32 and a 32 × 7 matrix, as the host computes it. -/
def product (x : FVec Ideal S100000x32 .f32) (w : FVec Ideal S32x7 .f32) : FVec Ideal S100000x7 .f32 :=
  Host.dotGeneral (F := Ideal) (DotDims.plain 100000 32 7) none x w

/-- Entry (p, q) of the body's result is the dot product of row p of the left block with column q of the right
    operand. -/
theorem body_apply (x0 : Vec Ideal S2000x32 .f32) (x1 : Vec Ideal S32x7 .f32) (p : Fin 2000) (q : Fin 7) :
    k1_pay1 x0 x1 (ix2 p q) = ∑ k : Fin 32, x0 (ix2 p k) * x1 (ix2 k q) := by
  unfold k1_pay1
  rw [shapeCast_self]
  exact PlainMatmul.matmul_zero_apply dot_S2000x32_S32x7_S2000x7_1_0_0_1_n_n rfl rfl rfl rfl rfl rfl none _ _ p q

/-- A block entry whose row p is row r of the whole left operand is entry (r, q) of the whole product. -/
theorem body_eq_product (x0 : Vec Ideal S2000x32 .f32) (x1 : Vec Ideal S32x7 .f32)
    (A : FVec Ideal S100000x32 .f32) (B : FVec Ideal S32x7 .f32)
    (p : Fin 2000) (q : Fin 7) (r : Fin 100000)
    (h0 : ∀ k : Fin 32, x0 (ix2 p k) = A (ix2 r k)) (h1 : ∀ k : Fin 32, x1 (ix2 k q) = B (ix2 k q)) :
    k1_pay1 x0 x1 (ix2 p q) = product A B (ix2 r q) := by
  rw [body_apply]
  unfold product
  rw [HostDot.dotGeneral_apply (DotDims.plain 100000 32 7) rfl rfl rfl rfl rfl rfl none A B r q]
  exact Finset.sum_congr rfl fun k _ => by rw [h0 k, h1 k]

theorem zeros : (![0, 0] : Fin 2 → Nat) = fun _ => 0 := funext fun a => by fin_cases a <;> rfl

/-- The printed index maps over the grid: point t reads block (t, 0) of the left operand, block (0, 0) of the
    right one, and writes block (t, 0) of the output. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the whole product of the operand arrays as the launch finds them. -/
theorem flushed_eq (c : Dev nD) (t : Fin cfg1.N) :
    (dat1 V c).flushed 2 t
      = ((cfg1.win 2).blk t).view.read (Elt Ideal) (product (V c main_v47) (V c main_arg4)) := by
  show (cfg1.win 2).cut (grid1.coords t) ((dat1 V c).after 2 t) = _
  rw [after1_2]
  unfold out1_2
  rw [View.canon_unit_zero zeros]
  simp only [View.ld_unit_zero (S := S2000x32) zeros, View.ld_unit_zero (S := S32x7) zeros]
  obtain ⟨e0, e1, e2, e3, e4, e5⟩ := index_facts t
  have ht : t.val < 50 := lt_of_lt_of_eq t.isLt N_1
  funext j
  obtain ⟨p, q, rfl⟩ : ∃ (p : Fin 2000) (q : Fin 7), j = ix2 p q := ⟨j 0, j 1, eq_ix2 j⟩
  have hp : p.val < 2000 := p.isLt
  have hr : t.val * 2000 + p.val < 100000 := by omega
  refine (body_eq_product (iblk1 V c 0 t) (iblk1 V c 1 t) (V c main_v47) (V c main_arg4) p q ⟨t.val * 2000 + p.val, hr⟩ ?_ ?_).trans ?_
  · intro k
    show V c main_v47 (((cfg1.win 0).blk t).view.emb (ix2 p k)) = V c main_v47 (ix2 ⟨t.val * 2000 + p.val, hr⟩ k)
    refine congrArg (V c main_v47) (funext fun a => Fin.ext ?_)
    match a with
    | ⟨0, _⟩ => show win1_0.index t (0 : Fin 2) * 2000 + 1 * p.val = t.val * 2000 + p.val; omega
    | ⟨1, _⟩ => show win1_0.index t (1 : Fin 2) * 32 + 1 * k.val = k.val; omega
  · intro k
    show V c main_arg4 (((cfg1.win 1).blk t).view.emb (ix2 k q)) = V c main_arg4 (ix2 k q)
    refine congrArg (V c main_arg4) (funext fun a => Fin.ext ?_)
    match a with
    | ⟨0, _⟩ => show win1_1.index t (0 : Fin 2) * 32 + 1 * k.val = k.val; omega
    | ⟨1, _⟩ => show win1_1.index t (1 : Fin 2) * 7 + 1 * q.val = q.val; omega
  · show product (V c main_v47) (V c main_arg4) (ix2 ⟨t.val * 2000 + p.val, hr⟩ q)
      = product (V c main_v47) (V c main_arg4) (((cfg1.win 2).blk t).view.emb (ix2 p q))
    refine congrArg (product (V c main_v47) (V c main_arg4)) (funext fun a => Fin.ext ?_)
    match a with
    | ⟨0, _⟩ => show t.val * 2000 + p.val = win1_2.index t (0 : Fin 2) * 2000 + 1 * p.val; omega
    | ⟨1, _⟩ => show q.val = win1_2.index t (1 : Fin 2) * 7 + 1 * q.val; omega

/-- An index of the output array is in point t's block iff each coordinate is in the block's range on its axis. -/
theorem mem_block (t : Fin cfg1.N) (i : S100000x7.Idx) :
    i ∈ ((cfg1.win 2).blk t).view.set ↔ ∀ a : Fin 2, win1_2.index t a * S2000x7.size a ≤ (i a).val ∧ (i a).val < win1_2.index t a * S2000x7.size a + S2000x7.size a := by
  show i ∈ ((View.whole main_v48).slice (win1_2.rect t)).set ↔ _
  rw [View.set_slice_whole, Rect.mem_set_unit]
  exact Iff.rfl

/-- Row r of the output lies in the block of point r / 2000: the blocks cover the output array. -/
theorem covered (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  have hN : (i 0).val / 2000 < cfg1.N := lt_of_lt_of_eq (by omega : (i 0).val / 2000 < 50) N_1.symm
  refine ⟨⟨(i 0).val / 2000, hN⟩, flush1_2 _, ?_⟩
  obtain ⟨e0, e1, e2, e3, e4, e5⟩ := index_facts ⟨(i 0).val / 2000, hN⟩
  rw [mem_block]
  intro a
  match a with
  | ⟨0, _⟩ =>
    show win1_2.index ⟨(i 0).val / 2000, hN⟩ (0 : Fin 2) * 2000 ≤ (i 0).val ∧ (i 0).val < win1_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hN⟩ (1 : Fin 2) * 7 ≤ (i 1).val ∧ (i 1).val < win1_2.index ⟨(i 0).val / 2000, hN⟩ (1 : Fin 2) * 7 + 7
    rw [e5]; omega

/-- When the launch returns, its output array holds the whole product of its two operand arrays. -/
theorem final (c : Dev nD) :
    (dat1 V c).arrAt 2 cfg1.N = product (V c main_v47) (V c main_arg4) :=
  (dat1 V c).arrAt_eq_of_cover 2 (product (V c main_v47) (V c main_arg4)) (fun t _ => flushed_eq V c t) covered

end Cert.KernelIdeal.Product2

end
-- ==== Proof.KernelFold.lean ====
/-
  The idealized kernel's result, read back through its nine segments.

  Reading the chain of valuations from the end: the result buffer is the second layer's host arithmetic applied to
  the second launch's output, the edge arrays and the second bias; the second launch's output is the whole product
  of its operands as it finds them, and its left operand is the first layer's host arithmetic applied to the first
  launch's output; the first launch's output is the whole product of the node features and the first weight
  matrix; and the edge arrays (end points with self loops, normalisation weights) are computed once, before the
  first launch, from the edge list alone.  Nothing later overwrites a buffer that is read again, so each of these
  reads walks back to the launch memory.
-/
import proofs.«116943_j10539849744444_1_alg».proof.Proof.Gen.KernelIdeal.Frame
import proofs.«116943_j10539849744444_1_alg».proof.Proof.Tails
import proofs.«116943_j10539849744444_1_alg».proof.Proof.LibTypedRef
import proofs.«116943_j10539849744444_1_alg».proof.Proof.Product1
import proofs.«116943_j10539849744444_1_alg».proof.Proof.Product2

set_option maxRecDepth 16384

noncomputable section

namespace Cert.KernelIdeal.Fold

open Cert.KernelIdeal Cert.KernelIdeal.Gen Cert.Gcn
open Idealize.ShloMosaic Idealize.ShloMosaic.TcCoe Idealize.ShloMosaic.StableHlo Idealize.SL.Sem
open Idealize.ShloMosaic.TypedRef (ofBuf_toBuf)

/-! ## Each stretch of host operations over an arbitrary valuation -/

section Stretches

variable {F : FTy → Type} [FloatOps F]
variable (V : Valuation τ sig (Elt F))

/-! ### Before the first launch: the edge arrays -/

set_option maxHeartbeats 4000000 in
theorem pre_v3 : after hostOps0_2 (after hostOps0_1 (after hostOps0 V)) (Proc.devRef .tc main_v3) = srcOf (V (Proc.devRef .tc main_arg1)) := by
  after_results_simp
  rfl

set_option maxHeartbeats 4000000 in
theorem pre_v6 : after hostOps0_2 (after hostOps0_1 (after hostOps0 V)) (Proc.devRef .tc main_v6) = dstOf (V (Proc.devRef .tc main_arg1)) := by
  after_results_simp
  rfl

set_option maxHeartbeats 4000000 in
theorem pre_v29 : after hostOps0_2 (after hostOps0_1 (after hostOps0 V)) (Proc.devRef .tc main_v29)
    = normOf (srcOf (V (Proc.devRef .tc main_arg1))) (dstOf (V (Proc.devRef .tc main_arg1))) := by
  after_results_simp
  try simp only [ofBuf_toBuf]
  try simp only [cast_eq]
  try rfl

set_option maxHeartbeats 4000000 in
theorem pre_arg0 : after hostOps0_2 (after hostOps0_1 (after hostOps0 V)) (Proc.devRef .tc main_arg0) = V (Proc.devRef .tc main_arg0) := by
  after_results_simp

set_option maxHeartbeats 4000000 in
theorem pre_arg2 : after hostOps0_2 (after hostOps0_1 (after hostOps0 V)) (Proc.devRef .tc main_arg2) = V (Proc.devRef .tc main_arg2) := by
  after_results_simp

set_option maxHeartbeats 4000000 in
theorem pre_arg3 : after hostOps0_2 (after hostOps0_1 (after hostOps0 V)) (Proc.devRef .tc main_arg3) = V (Proc.devRef .tc main_arg3) := by
  after_results_simp

set_option maxHeartbeats 4000000 in
theorem pre_arg4 : after hostOps0_2 (after hostOps0_1 (after hostOps0 V)) (Proc.devRef .tc main_arg4) = V (Proc.devRef .tc main_arg4) := by
  after_results_simp

set_option maxHeartbeats 4000000 in
theorem pre_arg5 : after hostOps0_2 (after hostOps0_1 (after hostOps0 V)) (Proc.devRef .tc main_arg5) = V (Proc.devRef .tc main_arg5) := by
  after_results_simp

/-! ### Between the launches: the first layer's aggregation and max(·, 0) -/

set_option maxHeartbeats 4000000 in
theorem mid_v47 : after hostOps1_1 (after hostOps1 V) (Proc.devRef .tc main_v47)
    = layer1 (V (Proc.devRef .tc main_v30)) (V (Proc.devRef .tc main_v3)) (V (Proc.devRef .tc main_v6))
        (V (Proc.devRef .tc main_v29)) (V (Proc.devRef .tc main_arg3)) := by
  after_results_simp
  try simp only [ofBuf_toBuf]
  try simp only [cast_eq]
  try rfl

set_option maxHeartbeats 4000000 in
theorem mid_v3 : after hostOps1_1 (after hostOps1 V) (Proc.devRef .tc main_v3) = V (Proc.devRef .tc main_v3) := by
  after_results_simp

set_option maxHeartbeats 4000000 in
theorem mid_v6 : after hostOps1_1 (after hostOps1 V) (Proc.devRef .tc main_v6) = V (Proc.devRef .tc main_v6) := by
  after_results_simp

set_option maxHeartbeats 4000000 in
theorem mid_v29 : after hostOps1_1 (after hostOps1 V) (Proc.devRef .tc main_v29) = V (Proc.devRef .tc main_v29) := by
  after_results_simp

set_option maxHeartbeats 4000000 in
theorem mid_arg4 : after hostOps1_1 (after hostOps1 V) (Proc.devRef .tc main_arg4) = V (Proc.devRef .tc main_arg4) := by
  after_results_simp

set_option maxHeartbeats 4000000 in
theorem mid_arg5 : after hostOps1_1 (after hostOps1 V) (Proc.devRef .tc main_arg5) = V (Proc.devRef .tc main_arg5) := by
  after_results_simp

/-! ### After the second launch: the second layer's aggregation and the log-softmax -/

set_option maxHeartbeats 4000000 in
theorem post_v65 : after hostOps2_1 (after hostOps2 V) (Proc.devRef .tc main_v65)
    = layer2 (V (Proc.devRef .tc main_v48)) (V (Proc.devRef .tc main_v3)) (V (Proc.devRef .tc main_v6))
        (V (Proc.devRef .tc main_v29)) (V (Proc.devRef .tc main_arg5)) := by
  after_results_simp
  try simp only [ofBuf_toBuf]
  try simp only [cast_eq]
  try rfl

end Stretches

/-! ## The chain from the launch memory -/

variable (m : (ℓ : Loc nD τ sig) → Buf (Elt Ideal) ℓ) (ρ : Dev nD → PrngReg)

theorem ne_arrays0 {b : Ref sig .tc} (h0 : main_arg0 ≠ b) (h1 : main_arg2 ≠ b) (h2 : main_v30 ≠ b) :
    ∀ w, Pipeline.arrRef spec0 w ≠ b := fun w => by
  match w with
  | ⟨0, _⟩ => exact h0
  | ⟨1, _⟩ => exact h1
  | ⟨2, _⟩ => exact h2

theorem ne_arrays1 {b : Ref sig .tc} (h0 : main_v47 ≠ b) (h1 : main_arg4 ≠ b) (h2 : main_v48 ≠ b) :
    ∀ w, Pipeline.arrRef spec1 w ≠ b := fun w => by
  match w with
  | ⟨0, _⟩ => exact h0
  | ⟨1, _⟩ => exact h1
  | ⟨2, _⟩ => exact h2

/-- The first launch's output holds the whole product of the node features and the first weight matrix. -/
theorem first_product (c : Dev nD) :
    W4 m ρ c (Proc.devRef .tc main_v30)
      = Product1.product (m ((c : Thread nD τ).loc main_arg0)) (m ((c : Thread nD τ).loc main_arg2)) := by
  refine (W4_arr m ρ c 2).trans ((Product1.final (V3 m ρ) c).trans ?_)
  show Product1.product (W3 m ρ c (Proc.devRef .tc main_arg0)) (W3 m ρ c (Proc.devRef .tc main_arg2)) = _
  rw [show W3 m ρ c (Proc.devRef .tc main_arg0) = W0 m ρ c (Proc.devRef .tc main_arg0) from pre_arg0 (W0 m ρ c),
    show W3 m ρ c (Proc.devRef .tc main_arg2) = W0 m ρ c (Proc.devRef .tc main_arg2) from pre_arg2 (W0 m ρ c)]

/-- A buffer the first launch does not own, at its exit, holds what the host operations before it left. -/
theorem W4_keep (c : Dev nD) (b : Ref sig .tc) (h0 : main_arg0 ≠ b) (h1 : main_arg2 ≠ b) (h2 : main_v30 ≠ b) :
    W4 m ρ c (Proc.devRef .tc b) = W3 m ρ c (Proc.devRef .tc b) :=
  W4_of_ne m ρ c b (ne_arrays0 h0 h1 h2)

theorem W7_keep (c : Dev nD) (b : Ref sig .tc) (h0 : main_v47 ≠ b) (h1 : main_arg4 ≠ b) (h2 : main_v48 ≠ b) :
    W7 m ρ c (Proc.devRef .tc b) = W6 m ρ c (Proc.devRef .tc b) :=
  W7_of_ne m ρ c b (ne_arrays1 h0 h1 h2)

/-- The edge arrays and the later operands, wherever they are read after the first launch. -/
theorem W4_v3 (c : Dev nD) : W4 m ρ c (Proc.devRef .tc main_v3) = srcOf (m ((c : Thread nD τ).loc main_arg1)) :=
  (W4_keep m ρ c main_v3 (by decide) (by decide) (by decide)).trans (pre_v3 (W0 m ρ c))
theorem W4_v6 (c : Dev nD) : W4 m ρ c (Proc.devRef .tc main_v6) = dstOf (m ((c : Thread nD τ).loc main_arg1)) :=
  (W4_keep m ρ c main_v6 (by decide) (by decide) (by decide)).trans (pre_v6 (W0 m ρ c))
theorem W4_v29 (c : Dev nD) : W4 m ρ c (Proc.devRef .tc main_v29)
    = normOf (srcOf (m ((c : Thread nD τ).loc main_arg1))) (dstOf (m ((c : Thread nD τ).loc main_arg1))) :=
  (W4_keep m ρ c main_v29 (by decide) (by decide) (by decide)).trans (pre_v29 (W0 m ρ c))
theorem W4_arg3 (c : Dev nD) : W4 m ρ c (Proc.devRef .tc main_arg3) = m ((c : Thread nD τ).loc main_arg3) :=
  (W4_keep m ρ c main_arg3 (by decide) (by decide) (by decide)).trans (pre_arg3 (W0 m ρ c))
theorem W4_arg4 (c : Dev nD) : W4 m ρ c (Proc.devRef .tc main_arg4) = m ((c : Thread nD τ).loc main_arg4) :=
  (W4_keep m ρ c main_arg4 (by decide) (by decide) (by decide)).trans (pre_arg4 (W0 m ρ c))
theorem W4_arg5 (c : Dev nD) : W4 m ρ c (Proc.devRef .tc main_arg5) = m ((c : Thread nD τ).loc main_arg5) :=
  (W4_keep m ρ c main_arg5 (by decide) (by decide) (by decide)).trans (pre_arg5 (W0 m ρ c))

/-- The second launch's left operand: the first layer applied to the first product. -/
theorem W6_v47 (c : Dev nD) : W6 m ρ c (Proc.devRef .tc main_v47)
    = layer1 (Product1.product (m ((c : Thread nD τ).loc main_arg0)) (m ((c : Thread nD τ).loc main_arg2)))
        (srcOf (m ((c : Thread nD τ).loc main_arg1))) (dstOf (m ((c : Thread nD τ).loc main_arg1)))
        (normOf (srcOf (m ((c : Thread nD τ).loc main_arg1))) (dstOf (m ((c : Thread nD τ).loc main_arg1))))
        (m ((c : Thread nD τ).loc main_arg3)) := by
  refine (mid_v47 (W4 m ρ c)).trans ?_
  rw [first_product m ρ c, W4_v3 m ρ c, W4_v6 m ρ c, W4_v29 m ρ c, W4_arg3 m ρ c]

theorem W6_v3 (c : Dev nD) : W6 m ρ c (Proc.devRef .tc main_v3) = srcOf (m ((c : Thread nD τ).loc main_arg1)) :=
  (mid_v3 (W4 m ρ c)).trans (W4_v3 m ρ c)
theorem W6_v6 (c : Dev nD) : W6 m ρ c (Proc.devRef .tc main_v6) = dstOf (m ((c : Thread nD τ).loc main_arg1)) :=
  (mid_v6 (W4 m ρ c)).trans (W4_v6 m ρ c)
theorem W6_v29 (c : Dev nD) : W6 m ρ c (Proc.devRef .tc main_v29)
    = normOf (srcOf (m ((c : Thread nD τ).loc main_arg1))) (dstOf (m ((c : Thread nD τ).loc main_arg1))) :=
  (mid_v29 (W4 m ρ c)).trans (W4_v29 m ρ c)
theorem W6_arg4 (c : Dev nD) : W6 m ρ c (Proc.devRef .tc main_arg4) = m ((c : Thread nD τ).loc main_arg4) :=
  (mid_arg4 (W4 m ρ c)).trans (W4_arg4 m ρ c)
theorem W6_arg5 (c : Dev nD) : W6 m ρ c (Proc.devRef .tc main_arg5) = m ((c : Thread nD τ).loc main_arg5) :=
  (mid_arg5 (W4 m ρ c)).trans (W4_arg5 m ρ c)

/-- The second launch's output holds the whole product of the first layer's result and the second weight matrix. -/
theorem second_product (c : Dev nD) :
    W7 m ρ c (Proc.devRef .tc main_v48)
      = Product2.product
          (layer1 (Product1.product (m ((c : Thread nD τ).loc main_arg0)) (m ((c : Thread nD τ).loc main_arg2)))
            (srcOf (m ((c : Thread nD τ).loc main_arg1))) (dstOf (m ((c : Thread nD τ).loc main_arg1)))
            (normOf (srcOf (m ((c : Thread nD τ).loc main_arg1))) (dstOf (m ((c : Thread nD τ).loc main_arg1))))
            (m ((c : Thread nD τ).loc main_arg3)))
          (m ((c : Thread nD τ).loc main_arg4)) := by
  refine (W7_arr m ρ c 2).trans ((Product2.final (V6 m ρ) c).trans ?_)
  show Product2.product (W6 m ρ c (Proc.devRef .tc main_v47)) (W6 m ρ c (Proc.devRef .tc main_arg4)) = _
  rw [W6_v47 m ρ c, W6_arg4 m ρ c]

/-- THE RESULT: the second layer applied to the second product, everything a function of the launch memory. -/
theorem result_eq (c : Dev nD) :
    W9 m ρ c (Proc.devRef .tc main_v65)
      = layer2
          (Product2.product
            (layer1 (Product1.product (m ((c : Thread nD τ).loc main_arg0)) (m ((c : Thread nD τ).loc main_arg2)))
              (srcOf (m ((c : Thread nD τ).loc main_arg1))) (dstOf (m ((c : Thread nD τ).loc main_arg1)))
              (normOf (srcOf (m ((c : Thread nD τ).loc main_arg1))) (dstOf (m ((c : Thread nD τ).loc main_arg1))))
              (m ((c : Thread nD τ).loc main_arg3)))
            (m ((c : Thread nD τ).loc main_arg4)))
          (srcOf (m ((c : Thread nD τ).loc main_arg1))) (dstOf (m ((c : Thread nD τ).loc main_arg1)))
          (normOf (srcOf (m ((c : Thread nD τ).loc main_arg1))) (dstOf (m ((c : Thread nD τ).loc main_arg1))))
          (m ((c : Thread nD τ).loc main_arg5)) := by
  refine (post_v65 (W7 m ρ c)).trans ?_
  rw [second_product m ρ c,
    (W7_keep m ρ c main_v3 (by decide) (by decide) (by decide)).trans (W6_v3 m ρ c),
    (W7_keep m ρ c main_v6 (by decide) (by decide) (by decide)).trans (W6_v6 m ρ c),
    (W7_keep m ρ c main_v29 (by decide) (by decide) (by decide)).trans (W6_v29 m ρ c),
    (W7_keep m ρ c main_arg5 (by decide) (by decide) (by decide)).trans (W6_arg5 m ρ c)]

end Cert.KernelIdeal.Fold

end
-- ==== Proof.RefFold.lean ====
/-
  The idealized reference's result, read back in two halves.

  The reference is one straight line of 131 host operations.  Its first 63 compute the edge arrays (end points with
  self loops, normalisation weights), the product of the node features with the first weight matrix, and the first
  layer's aggregation and max(·, 0); its last 68 compute the edge weights a second time from the same end points,
  the product of the first layer's result with the second weight matrix, and the second layer's aggregation and
  log-softmax.  Read over an arbitrary valuation, each half is the shared host arithmetic of `Cert.Gcn` around one
  host matrix product; composed from the launch memory they give the result as one function of the six arguments.
-/
import proofs.«116943_j10539849744444_1_alg».proof.Proof.RefOps
import proofs.«116943_j10539849744444_1_alg».proof.Proof.Gen.KernelIdeal
import proofs.«116943_j10539849744444_1_alg».proof.Proof.Tails
import proofs.«116943_j10539849744444_1_alg».proof.Proof.LibTypedRef

set_option maxRecDepth 16384

noncomputable section

namespace Cert.ReferenceIdeal.RefFold

open Cert.ReferenceIdeal Cert.ReferenceIdeal.Gen Cert.ReferenceIdeal.RefOps Cert.Gcn
open Idealize.ShloMosaic Idealize.ShloMosaic.TcCoe Idealize.SL.Sem Idealize.ShloMosaic.StableHlo
open Idealize.ShloMosaic.TypedRef (ofBuf_toBuf)

variable {F : FTy → Type} [FloatOps F]

/-- The first 63 operations: the edge arrays, the first matrix product, the first layer's aggregation and max(·, 0). -/
abbrev ops1 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x1433_S1433x32_S100000x32_1_0_0_1_n_n none l r) : (⟨S100000x1433, .f32⟩ : BufTy).Contents (Elt F) → (⟨S1433x32, .f32⟩ : BufTy).Contents (Elt F) → (⟨S100000x32, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x32 ![0, 1] bcast_S3300000x1_S3300000x32_0_1 : (⟨S3300000x1, .f32⟩ : BufTy).Contents (Elt F) → (⟨S3300000x32, .f32⟩ : BufTy).Contents (Elt F)),
    binary main_v37 main_v39 main_v40 (mulf : (⟨S3300000x32, .f32⟩ : BufTy).Contents (Elt F) → (⟨S3300000x32, .f32⟩ : BufTy).Contents (Elt F) → (⟨S3300000x32, .f32⟩ : BufTy).Contents (Elt F)),
    nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg3 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf ]

/-- The last 68 operations: the edge weights again, the second matrix product, the second layer's aggregation and
    the log-softmax. -/
abbrev ops2 : List (HloOp τ sig (Elt F)) :=
  [ nullary main_cst_9 (constant S_ .f32 0x3F800000#32),
    unary main_cst_9 main_v48 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v49 (broadcastInDim S100000 ![] bcast_S_S100000 : (⟨S_, .f32⟩ : BufTy).Contents (Elt F) → (⟨S100000, .f32⟩ : BufTy).Contents (Elt F)),
    unary main_v6 main_v50 (broadcastInDim S3300000x1 ![0] bcast_S3300000_S3300000x1_0 : (⟨S3300000, .i32⟩ : BufTy).Contents (Elt F) → (⟨S3300000x1, .i32⟩ : BufTy).Contents (Elt F)),
    ternary main_v49 main_v50 main_v48 main_v51 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v52 (broadcastInDim S100000 ![] bcast_S_S100000 : (⟨S_, .f32⟩ : BufTy).Contents (Elt F) → (⟨S100000, .f32⟩ : BufTy).Contents (Elt F)),
    binary main_v51 main_v52 main_v53 (cmpf .ogt : (⟨S100000, .f32⟩ : BufTy).Contents (Elt F) → (⟨S100000, .f32⟩ : BufTy).Contents (Elt F) → (⟨S100000, .i1⟩ : BufTy).Contents (Elt F)),
    unary main_v51 main_v54 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v53) (TRef.of (T := ⟨S100000, .f32⟩) main_v54) (TRef.of (T := ⟨S100000, .f32⟩) main_call2_v1) (TRef.of (T := ⟨S100000, .f32⟩) main_v55) select,
    nullary main_c_13 (constantI S_ 32 0#32),
    unary main_c_13 main_v56 (broadcastInDim S3300000 ![] bcast_S_S3300000 : (⟨S_, .i32⟩ : BufTy).Contents (Elt F) → (⟨S3300000, .i32⟩ : BufTy).Contents (Elt F)),
    binary main_v3 main_v56 main_v57 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v58 (broadcastInDim S3300000 ![] bcast_S_S3300000 : (⟨S_, .i32⟩ : BufTy).Contents (Elt F) → (⟨S3300000, .i32⟩ : BufTy).Contents (Elt F)),
    binary main_v3 main_v58 main_v59 (addi : (⟨S3300000, .i32⟩ : BufTy).Contents (Elt F) → (⟨S3300000, .i32⟩ : BufTy).Contents (Elt F) → (⟨S3300000, .i32⟩ : BufTy).Contents (Elt F)),
    ternary main_v57 main_v59 main_v3 main_v60 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v60 main_v61 (broadcastInDim S3300000x1 ![0] bcast_S3300000_S3300000x1_0 : (⟨S3300000, .i32⟩ : BufTy).Contents (Elt F) → (⟨S3300000x1, .i32⟩ : BufTy).Contents (Elt F)),
    binary main_v55 main_v61 main_v62 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v63 (broadcastInDim S3300000 ![] bcast_S_S3300000 : (⟨S_, .i32⟩ : BufTy).Contents (Elt F) → (⟨S3300000, .i32⟩ : BufTy).Contents (Elt F)),
    binary main_v6 main_v63 main_v64 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v65 (broadcastInDim S3300000 ![] bcast_S_S3300000 : (⟨S_, .i32⟩ : BufTy).Contents (Elt F) → (⟨S3300000, .i32⟩ : BufTy).Contents (Elt F)),
    binary main_v6 main_v65 main_v66 (addi : (⟨S3300000, .i32⟩ : BufTy).Contents (Elt F) → (⟨S3300000, .i32⟩ : BufTy).Contents (Elt F) → (⟨S3300000, .i32⟩ : BufTy).Contents (Elt F)),
    ternary main_v64 main_v66 main_v6 main_v67 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v67 main_v68 (broadcastInDim S3300000x1 ![0] bcast_S3300000_S3300000x1_0 : (⟨S3300000, .i32⟩ : BufTy).Contents (Elt F) → (⟨S3300000x1, .i32⟩ : BufTy).Contents (Elt F)),
    binary main_v55 main_v68 main_v69 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v62 main_v69 main_v70 (mulf : (⟨S3300000, .f32⟩ : BufTy).Contents (Elt F) → (⟨S3300000, .f32⟩ : BufTy).Contents (Elt F) → (⟨S3300000, .f32⟩ : BufTy).Contents (Elt F)),
    binary main_v47 main_arg4 main_v71 ((fun l r => Host.dotGeneral dot_S100000x32_S32x7_S100000x7_1_0_0_1_n_n none l r) : (⟨S100000x32, .f32⟩ : BufTy).Contents (Elt F) → (⟨S32x7, .f32⟩ : BufTy).Contents (Elt F) → (⟨S100000x7, .f32⟩ : BufTy).Contents (Elt F)),
    nullary main_c_17 (constantI S_ 32 0#32),
    unary main_c_17 main_v72 (broadcastInDim S3300000 ![] bcast_S_S3300000 : (⟨S_, .i32⟩ : BufTy).Contents (Elt F) → (⟨S3300000, .i32⟩ : BufTy).Contents (Elt F)),
    binary main_v3 main_v72 main_v73 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v74 (broadcastInDim S3300000 ![] bcast_S_S3300000 : (⟨S_, .i32⟩ : BufTy).Contents (Elt F) → (⟨S3300000, .i32⟩ : BufTy).Contents (Elt F)),
    binary main_v3 main_v74 main_v75 (addi : (⟨S3300000, .i32⟩ : BufTy).Contents (Elt F) → (⟨S3300000, .i32⟩ : BufTy).Contents (Elt F) → (⟨S3300000, .i32⟩ : BufTy).Contents (Elt F)),
    ternary main_v73 main_v75 main_v3 main_v76 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v76 main_v77 (broadcastInDim S3300000x1 ![0] bcast_S3300000_S3300000x1_0 : (⟨S3300000, .i32⟩ : BufTy).Contents (Elt F) → (⟨S3300000x1, .i32⟩ : BufTy).Contents (Elt F)),
    binary main_v71 main_v77 main_v78 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v70 main_v79 (broadcastInDim S3300000x1 ![0] bcast_S3300000_S3300000x1_0 : (⟨S3300000, .f32⟩ : BufTy).Contents (Elt F) → (⟨S3300000x1, .f32⟩ : BufTy).Contents (Elt F)),
    unary main_v79 main_v80 (broadcastInDim S3300000x7 ![0, 1] bcast_S3300000x1_S3300000x7_0_1 : (⟨S3300000x1, .f32⟩ : BufTy).Contents (Elt F) → (⟨S3300000x7, .f32⟩ : BufTy).Contents (Elt F)),
    binary main_v78 main_v80 main_v81 (mulf : (⟨S3300000x7, .f32⟩ : BufTy).Contents (Elt F) → (⟨S3300000x7, .f32⟩ : BufTy).Contents (Elt F) → (⟨S3300000x7, .f32⟩ : BufTy).Contents (Elt F)),
    nullary main_cst_19 (constant S_ .f32 0x00000000#32),
    unary main_cst_19 main_v82 (broadcastInDim S100000x7 ![] bcast_S_S100000x7 : (⟨S_, .f32⟩ : BufTy).Contents (Elt F) → (⟨S100000x7, .f32⟩ : BufTy).Contents (Elt F)),
    unary main_v6 main_v83 (broadcastInDim S3300000x1 ![0] bcast_S3300000_S3300000x1_0 : (⟨S3300000, .i32⟩ : BufTy).Contents (Elt F) → (⟨S3300000x1, .i32⟩ : BufTy).Contents (Elt F)),
    ternary main_v82 main_v83 main_v81 main_v84 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg5 main_v85 (broadcastInDim S1x7 ![1] bcast_S7_S1x7_1 : (⟨S7, .f32⟩ : BufTy).Contents (Elt F) → (⟨S1x7, .f32⟩ : BufTy).Contents (Elt F)),
    unary main_v85 main_v86 (broadcastInDim S100000x7 ![0, 1] bcast_S1x7_S100000x7_0_1 : (⟨S1x7, .f32⟩ : BufTy).Contents (Elt F) → (⟨S100000x7, .f32⟩ : BufTy).Contents (Elt F)),
    binary main_v84 main_v86 main_v87 (addf : (⟨S100000x7, .f32⟩ : BufTy).Contents (Elt F) → (⟨S100000x7, .f32⟩ : BufTy).Contents (Elt F) → (⟨S100000x7, .f32⟩ : BufTy).Contents (Elt F)),
    TRef.nullary (TRef.of (T := ⟨S_, .f32⟩) main_call3_cst) (constant S_ .f32 0xFF800000#32),
    TRef.binary (TRef.of (T := ⟨S100000x7, .f32⟩) main_v87) (TRef.of (T := ⟨S_, .f32⟩) main_call3_cst) (TRef.of (T := ⟨S100000, .f32⟩) main_call3_v0) (fun x v => Host.reduce FloatOps.maximumf x v reducesTo_S100000x7_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x7, .f32⟩) main_call3_v4) (broadcastInDim S100000x7 ![0, 1] bcast_S100000x1_S100000x7_0_1),
    TRef.binary (TRef.of (T := ⟨S100000x7, .f32⟩) main_v87) (TRef.of (T := ⟨S100000x7, .f32⟩) main_call3_v4) (TRef.of (T := ⟨S100000x7, .f32⟩) main_call3_v5) subf,
    TRef.unary (TRef.of (T := ⟨S100000x7, .f32⟩) main_call3_v5) (TRef.of (T := ⟨S100000x7, .f32⟩) main_call3_v6) Host.exp,
    TRef.nullary (TRef.of (T := ⟨S_, .f32⟩) main_call3_cst_1) (constant S_ .f32 0x00000000#32),
    TRef.binary (TRef.of (T := ⟨S100000x7, .f32⟩) main_call3_v6) (TRef.of (T := ⟨S_, .f32⟩) main_call3_cst_1) (TRef.of (T := ⟨S100000, .f32⟩) main_call3_v7) (fun x v => Host.reduceAdd x v reducesTo_S100000x7_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x7, .f32⟩) main_call3_v10) (broadcastInDim S100000x7 ![0, 1] bcast_S100000x1_S100000x7_0_1),
    TRef.binary (TRef.of (T := ⟨S100000x7, .f32⟩) main_call3_v5) (TRef.of (T := ⟨S100000x7, .f32⟩) main_call3_v10) (TRef.of (T := ⟨S100000x7, .f32⟩) main_v88) subf ]

set_option maxRecDepth 8192 in
/-- The program's operations are those two halves, in order. -/
theorem ops_split : (ops : List (HloOp τ sig (Elt F))) = ops1 ++ ops2 := rfl

/-- Running two lines one after the other is running their concatenation. -/
theorem after_append (A B : List (HloOp τ sig (Elt F))) (V : Valuation τ sig (Elt F)) :
    after (A ++ B) V = after B (after A V) := by
  induction A generalizing V with
  | nil => rfl
  | cons op A ih => exact ih _

section Halves

variable (V : Valuation τ sig (Elt F))

set_option maxHeartbeats 8000000 in
/-- After the first half the first layer's result is the shared first-layer arithmetic of the host product x · W1. -/
theorem first_v47 : after ops1 V (Proc.devRef .tc main_v47)
    = layer1
        (Host.dotGeneral dot_S100000x1433_S1433x32_S100000x32_1_0_0_1_n_n none
          (V (Proc.devRef .tc main_arg0) : FVec F S100000x1433 .f32) (V (Proc.devRef .tc main_arg2) : FVec F S1433x32 .f32))
        (srcOf (V (Proc.devRef .tc main_arg1))) (dstOf (V (Proc.devRef .tc main_arg1)))
        (normOf (srcOf (V (Proc.devRef .tc main_arg1))) (dstOf (V (Proc.devRef .tc main_arg1))))
        (V (Proc.devRef .tc main_arg3)) := by
  after_results_simp
  try simp only [ofBuf_toBuf]
  try simp only [cast_eq]
  try rfl

set_option maxHeartbeats 8000000 in
theorem first_v3 : after ops1 V (Proc.devRef .tc main_v3) = srcOf (V (Proc.devRef .tc main_arg1)) := by
  after_results_simp
  rfl

set_option maxHeartbeats 8000000 in
theorem first_v6 : after ops1 V (Proc.devRef .tc main_v6) = dstOf (V (Proc.devRef .tc main_arg1)) := by
  after_results_simp
  rfl

set_option maxHeartbeats 8000000 in
theorem first_arg4 : after ops1 V (Proc.devRef .tc main_arg4) = V (Proc.devRef .tc main_arg4) := by
  after_results_simp

set_option maxHeartbeats 8000000 in
theorem first_arg5 : after ops1 V (Proc.devRef .tc main_arg5) = V (Proc.devRef .tc main_arg5) := by
  after_results_simp

set_option maxHeartbeats 8000000 in
/-- After the second half the result is the shared second-layer arithmetic of the host product h · W2, with the edge
    weights recomputed from the same end points. -/
theorem second_v88 : after ops2 V (Proc.devRef .tc main_v88)
    = layer2
        (Host.dotGeneral dot_S100000x32_S32x7_S100000x7_1_0_0_1_n_n none
          (V (Proc.devRef .tc main_v47) : FVec F S100000x32 .f32) (V (Proc.devRef .tc main_arg4) : FVec F S32x7 .f32))
        (V (Proc.devRef .tc main_v3)) (V (Proc.devRef .tc main_v6))
        (normOf (V (Proc.devRef .tc main_v3)) (V (Proc.devRef .tc main_v6)))
        (V (Proc.devRef .tc main_arg5)) := by
  after_results_simp
  try simp only [ofBuf_toBuf]
  try simp only [cast_eq]
  try rfl

end Halves

set_option maxHeartbeats 16000000 in
/-- No operation writes argument 0. -/
theorem kept_arg0 (V : Valuation τ sig (Elt F)) : after ops V (Proc.devRef .tc main_arg0) = V (Proc.devRef .tc main_arg0) := by
  after_results_simp

set_option maxHeartbeats 16000000 in
/-- No operation writes argument 1. -/
theorem kept_arg1 (V : Valuation τ sig (Elt F)) : after ops V (Proc.devRef .tc main_arg1) = V (Proc.devRef .tc main_arg1) := by
  after_results_simp

set_option maxHeartbeats 16000000 in
/-- No operation writes argument 2. -/
theorem kept_arg2 (V : Valuation τ sig (Elt F)) : after ops V (Proc.devRef .tc main_arg2) = V (Proc.devRef .tc main_arg2) := by
  after_results_simp

set_option maxHeartbeats 16000000 in
/-- No operation writes argument 3. -/
theorem kept_arg3 (V : Valuation τ sig (Elt F)) : after ops V (Proc.devRef .tc main_arg3) = V (Proc.devRef .tc main_arg3) := by
  after_results_simp

set_option maxHeartbeats 16000000 in
/-- No operation writes argument 4. -/
theorem kept_arg4 (V : Valuation τ sig (Elt F)) : after ops V (Proc.devRef .tc main_arg4) = V (Proc.devRef .tc main_arg4) := by
  after_results_simp

set_option maxHeartbeats 16000000 in
/-- No operation writes argument 5. -/
theorem kept_arg5 (V : Valuation τ sig (Elt F)) : after ops V (Proc.devRef .tc main_arg5) = V (Proc.devRef .tc main_arg5) := by
  after_results_simp

/-- THE RESULT of the reference as one function of the launch memory. -/
theorem result_eq (m : (ℓ : Loc nD τ sig) → Buf (Elt F) ℓ) (c : Dev nD) :
    after ops (launchContents m c) (Proc.devRef .tc main_v88)
      = layer2
          (Host.dotGeneral dot_S100000x32_S32x7_S100000x7_1_0_0_1_n_n none
            (layer1
              (Host.dotGeneral dot_S100000x1433_S1433x32_S100000x32_1_0_0_1_n_n none
                ((m ((c.tc : Thread nD τ).loc main_arg0)) : FVec F S100000x1433 .f32) ((m ((c.tc : Thread nD τ).loc main_arg2)) : FVec F S1433x32 .f32))
              (srcOf (m ((c.tc : Thread nD τ).loc main_arg1))) (dstOf (m ((c.tc : Thread nD τ).loc main_arg1)))
              (normOf (srcOf (m ((c.tc : Thread nD τ).loc main_arg1))) (dstOf (m ((c.tc : Thread nD τ).loc main_arg1))))
              (m ((c.tc : Thread nD τ).loc main_arg3)) : FVec F S100000x32 .f32)
            ((m ((c.tc : Thread nD τ).loc main_arg4)) : FVec F S32x7 .f32))
          (srcOf (m ((c.tc : Thread nD τ).loc main_arg1))) (dstOf (m ((c.tc : Thread nD τ).loc main_arg1)))
          (normOf (srcOf (m ((c.tc : Thread nD τ).loc main_arg1))) (dstOf (m ((c.tc : Thread nD τ).loc main_arg1))))
          (m ((c.tc : Thread nD τ).loc main_arg5)) := by
  rw [ops_split, after_append]
  refine (second_v88 (after ops1 (launchContents m c))).trans ?_
  rw [first_v47, first_v3, first_v6, first_arg4, first_arg5]

end Cert.ReferenceIdeal.RefFold

end
-- ==== Proof.lean ====
/-
  A two-layer graph convolution: two launches of a matrix-product kernel among host operations, against the same
  network written with the host's own matrix products.

  Both programs compute, from node features x, an edge list, weights W1, W2 and biases b1, b2,
      log_softmax( A · (max(A · (x W1) + b1, 0) · W2) + b2 ),
  where A is the normalised adjacency with self loops, applied as a gather of source rows scaled by the edge weight
  d(src)^(-1/2) · d(dst)^(-1/2) and scatter-added at the targets.  Everything but the two matrix products is the
  same sequence of host operations in both programs (`Cert.Gcn`: the kernel's program computes the edge weights once
  and uses them twice, the reference computes them twice from the same end points).  The two products differ in
  how they are computed: the reference takes one host product of the whole operands; the kernel cuts the left
  operand into 50 blocks of 2000 rows and multiplies each block by the whole right operand on the matrix unit, with
  operands narrowed to bf16 and an f32 accumulator started at zero.  At the ideal values narrowing is the identity
  and both are the exact sums  Σ_k l(i, k) · r(k, j),  entry by entry (`Product1`, `Product2`), so the block products
  tile the whole product and the two results are the same function of the arguments.  No property of the inputs
  is used: only that sums of extended reals do not depend on how they are blocked.

  The frames of the two kernel programs are the generated ones; the reference, having no kernel, runs as a straight
  line of host operations whose final buffers are the fold of the operations over the launch memory (`RefOps`), read
  back in two halves (`RefFold`).  The kernel program's run is the generated chain of segments with every final
  buffer named (`KernelRun`), read back segment by segment (`KernelFold`).  The ideal pass rewrote nothing.
-/
import proofs.«116943_j10539849744444_1_alg».proof.Defs
import proofs.«116943_j10539849744444_1_alg».proof.Proof.Gen.Kernel
import proofs.«116943_j10539849744444_1_alg».proof.Proof.Gen.Kernel.Frame
import proofs.«116943_j10539849744444_1_alg».proof.Proof.Gen.KernelIdeal
import proofs.«116943_j10539849744444_1_alg».proof.Proof.Gen.KernelIdeal.Frame
import proofs.«116943_j10539849744444_1_alg».proof.Proof.Gen.ReferenceIdeal
import proofs.«116943_j10539849744444_1_alg».proof.Proof.Gen.Pre_finite_inputs
import proofs.«116943_j10539849744444_1_alg».proof.Proof.Tails
import proofs.«116943_j10539849744444_1_alg».proof.Proof.KernelRun
import proofs.«116943_j10539849744444_1_alg».proof.Proof.KernelFold
import proofs.«116943_j10539849744444_1_alg».proof.Proof.RefOps
import proofs.«116943_j10539849744444_1_alg».proof.Proof.RefFold
import Idealize.ShloMosaic.Adequacy
import Idealize.ShloMosaic.Init

noncomputable section

namespace Cert.Proof

open Idealize.ShloMosaic Idealize.ShloMosaic.TcCoe Idealize.SL.Sem

/-- The kernel's whole first product is the reference's host product: one operation, the same dimension numbers. -/
theorem product1_eq (x : FVec Ideal Cert.KernelIdeal.S100000x1433 .f32) (w : FVec Ideal Cert.KernelIdeal.S1433x32 .f32) :
    Cert.KernelIdeal.Product1.product x w
      = Host.dotGeneral (F := Ideal) Cert.ReferenceIdeal.dot_S100000x1433_S1433x32_S100000x32_1_0_0_1_n_n none x w := rfl

/-- The kernel's whole second product is the reference's host product. -/
theorem product2_eq (x : FVec Ideal Cert.KernelIdeal.S100000x32 .f32) (w : FVec Ideal Cert.KernelIdeal.S32x7 .f32) :
    Cert.KernelIdeal.Product2.product x w
      = Host.dotGeneral (F := Ideal) Cert.ReferenceIdeal.dot_S100000x32_S32x7_S100000x7_1_0_0_1_n_n none x w := rfl

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments alone: no operation of its line writes an argument buffer. -/
theorem frame_referenceIdeal : Cert.frame_ReferenceIdeal := fun m ρ _ =>
  (θ_run Cert.ReferenceIdeal.defs _ _).mono (fun r h c =>
      ⟨(h c Cert.ReferenceIdeal.main_arg0).trans (Cert.ReferenceIdeal.RefFold.kept_arg0 _),
       (h c Cert.ReferenceIdeal.main_arg1).trans (Cert.ReferenceIdeal.RefFold.kept_arg1 _),
       (h c Cert.ReferenceIdeal.main_arg2).trans (Cert.ReferenceIdeal.RefFold.kept_arg2 _),
       (h c Cert.ReferenceIdeal.main_arg3).trans (Cert.ReferenceIdeal.RefFold.kept_arg3 _),
       (h c Cert.ReferenceIdeal.main_arg4).trans (Cert.ReferenceIdeal.RefFold.kept_arg4 _),
       (h c Cert.ReferenceIdeal.main_arg5).trans (Cert.ReferenceIdeal.RefFold.kept_arg5 _)⟩)
    (Cert.ReferenceIdeal.RefOps.run_all (F := Ideal) m ρ)

theorem preserves : Cert.preserves_Kernel_KernelIdeal := trivial

/-- Run from memories agreeing on the arguments, both idealized programs end with the same result: the same host
    arithmetic around matrix products that agree entry by entry. -/
theorem algebraic : Cert.algebraic_KernelIdeal_ReferenceIdeal := by
  intro m ρ m' ρ' _ hagree
  refine ⟨fun c => Cert.KernelIdeal.Gen.W9 m ρ c (Proc.devRef .tc Cert.KernelIdeal.main_v65),
    Cert.KernelIdeal.Whole.run_result m ρ, ?_⟩
  refine (θ_run Cert.ReferenceIdeal.defs _ _).mono (fun r h c =>
      ⟨?_,
       (h c Cert.ReferenceIdeal.main_arg0).trans (Cert.ReferenceIdeal.RefFold.kept_arg0 _),
       (h c Cert.ReferenceIdeal.main_arg1).trans (Cert.ReferenceIdeal.RefFold.kept_arg1 _),
       (h c Cert.ReferenceIdeal.main_arg2).trans (Cert.ReferenceIdeal.RefFold.kept_arg2 _),
       (h c Cert.ReferenceIdeal.main_arg3).trans (Cert.ReferenceIdeal.RefFold.kept_arg3 _),
       (h c Cert.ReferenceIdeal.main_arg4).trans (Cert.ReferenceIdeal.RefFold.kept_arg4 _),
       (h c Cert.ReferenceIdeal.main_arg5).trans (Cert.ReferenceIdeal.RefFold.kept_arg5 _)⟩)
    (Cert.ReferenceIdeal.RefOps.run_all (F := Ideal) m' ρ')
  refine (h c Cert.ReferenceIdeal.main_v88).trans ?_
  rw [Cert.ReferenceIdeal.RefFold.result_eq (F := Ideal) m' c]
  show _ = Cert.KernelIdeal.Gen.W9 m ρ c (Proc.devRef .tc Cert.KernelIdeal.main_v65)
  rw [Cert.KernelIdeal.Fold.result_eq m ρ c,
    (hagree c).1, (hagree c).2.1, (hagree c).2.2.1, (hagree c).2.2.2.1, (hagree c).2.2.2.2.1, (hagree c).2.2.2.2.2,
    product1_eq, product2_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
